-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1024x400 .f32
  ∧ IdealRules.sign_bit.Statement Cert.KernelIdeal.S1024x200 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S400x784 : Shape := ⟨2, ![400, 784]⟩
abbrev S200x400 : Shape := ⟨2, ![200, 400]⟩
abbrev S10x200 : Shape := ⟨2, ![10, 200]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S400x784 : S_.BroadcastsInDim S400x784 (![] : Fin 0 → Fin S400x784.rank)
  reducesTo_S400x784_S_d0_1 : S400x784.ReducesTo [0, 1] S_
  bcast_S_S200x400 : S_.BroadcastsInDim S200x400 (![] : Fin 0 → Fin S200x400.rank)
  reducesTo_S200x400_S_d0_1 : S200x400.ReducesTo [0, 1] S_
  bcast_S_S10x200 : S_.BroadcastsInDim S10x200 (![] : Fin 0 → Fin S10x200.rank)
  reducesTo_S10x200_S_d0_1 : S10x200.ReducesTo [0, 1] S_

variable [Facts]

def fn_part1 {F : FTy → Type} [FloatOps F] (main_v13 : IVec S_ 1) (main_v16 : IVec S10x200 1) : IVec S_ 1 :=
  let main_c_5 : IVec S_ 1 := constantI S_ 1 1#1
  let main_v17 : IVec S_ 1 := (fun x v => Host.reduce IntOp.andi x v reducesTo_S10x200_S_d0_1 h_S_) main_v16 main_c_5
  let main_v18 : IVec S_ 1 := andi main_v13 main_v17
  main_v18

def fn {F : FTy → Type} [FloatOps F] (main_arg0 : FVec F S65536x784 .f32) (main_arg1 : FVec F S400x784 .f32) (main_arg2 : FVec F S200x400 .f32) (main_arg3 : FVec F S10x200 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S400x784 .f32 := Host.absf main_arg1
  let main_cst_0 : FVec F S_ .f32 := constant S_ .f32 0x7F800000#32
  let main_v5 : FVec F S400x784 .f32 := broadcastInDim S400x784 ![] bcast_S_S400x784 main_cst_0
  let main_v6 : IVec S400x784 1 := cmpf .olt main_v4 main_v5
  let main_c_1 : IVec S_ 1 := constantI S_ 1 1#1
  let main_v7 : IVec S_ 1 := (fun x v => Host.reduce IntOp.andi x v reducesTo_S400x784_S_d0_1 h_S_) main_v6 main_c_1
  let main_v8 : IVec S_ 1 := andi main_v3 main_v7
  let main_v9 : FVec F S200x400 .f32 := Host.absf main_arg2
  let main_cst_2 : FVec F S_ .f32 := constant S_ .f32 0x7F800000#32
  let main_v10 : FVec F S200x400 .f32 := broadcastInDim S200x400 ![] bcast_S_S200x400 main_cst_2
  let main_v11 : IVec S200x400 1 := cmpf .olt main_v9 main_v10
  let main_c_3 : IVec S_ 1 := constantI S_ 1 1#1
  let main_v12 : IVec S_ 1 := (fun x v => Host.reduce IntOp.andi x v reducesTo_S200x400_S_d0_1 h_S_) main_v11 main_c_3
  let main_v13 : IVec S_ 1 := andi main_v8 main_v12
  let main_v14 : FVec F S10x200 .f32 := Host.absf main_arg3
  let main_cst_4 : FVec F S_ .f32 := constant S_ .f32 0x7F800000#32
  let main_v15 : FVec F S10x200 .f32 := broadcastInDim S10x200 ![] bcast_S_S10x200 main_cst_4
  let main_v16 : IVec S10x200 1 := cmpf .olt main_v14 main_v15
  fn_part1 (F := F) main_v13 main_v16
-- ==== Kernel.lean ====
abbrev S65536x784 : Shape := ⟨2, ![65536, 784]⟩
abbrev S400x784 : Shape := ⟨2, ![400, 784]⟩
abbrev S200x400 : Shape := ⟨2, ![200, 400]⟩
abbrev S10x200 : Shape := ⟨2, ![10, 200]⟩
abbrev S65536x10 : Shape := ⟨2, ![65536, 10]⟩
abbrev S1024x784 : Shape := ⟨2, ![1024, 784]⟩
abbrev S1024x10 : Shape := ⟨2, ![1024, 10]⟩
abbrev S1024x400 : Shape := ⟨2, ![1024, 400]⟩
abbrev S1024x200 : Shape := ⟨2, ![1024, 200]⟩

abbrev nBuf : Space → Nat
  | .hbm => 10
  | .vmem => 7
  | .smem => 0
  | _ => 0

abbrev bufTy : (tb : Table) → Fin (tcTables nBuf tb) → BufTy
  | .hbm, ⟨0, _⟩ => ⟨S65536x784, .f32⟩
  | .hbm, ⟨1, _⟩ => ⟨S400x784, .f32⟩
  | .hbm, ⟨2, _⟩ => ⟨S200x400, .f32⟩
  | .hbm, ⟨3, _⟩ => ⟨S10x200, .f32⟩
  | .hbm, ⟨4, _⟩ => ⟨S400x784, .f32⟩
  | .hbm, ⟨5, _⟩ => ⟨S200x400, .f32⟩
  | .hbm, ⟨6, _⟩ => ⟨S200x400, .bf16⟩
  | .hbm, ⟨7, _⟩ => ⟨S10x200, .f32⟩
  | .hbm, ⟨8, _⟩ => ⟨S10x200, .bf16⟩
  | .hbm, ⟨9, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S400x784, .f32⟩
  | .local _ .vmem, ⟨3, _⟩ => ⟨S200x400, .bf16⟩
  | .local _ .vmem, ⟨4, _⟩ => ⟨S10x200, .bf16⟩
  | .local _ .vmem, ⟨5, _⟩ => ⟨S1024x10, .f32⟩
  | .local _ .vmem, ⟨6, _⟩ => ⟨S1024x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1024x784_S1024x784_0_0 : ∀ a, (![0, 0] : Fin 2 → Nat) a + S1024x784.size a ≤ S1024x784.size a
  h_S1024x784 : 0 < S1024x784.numel
  inb_S400x784_S400x784_0_0 : ∀ a, (![0, 0] : Fin 2 → Nat) a + S400x784.size a ≤ S400x784.size a
  h_S400x784 : 0 < S400x784.numel
  shapeCasts_S400x784_S400x784 : S400x784.ShapeCasts S400x784
  inb_S200x400_S200x400_0_0 : ∀ a, (![0, 0] : Fin 2 → Nat) a + S200x400.size a ≤ S200x400.size a
  h_S200x400 : 0 < S200x400.numel
  shapeCasts_S200x400_S200x400 : S200x400.ShapeCasts S200x400
  inb_S10x200_S10x200_0_0 : ∀ a, (![0, 0] : Fin 2 → Nat) a + S10x200.size a ≤ S10x200.size a
  h_S10x200 : 0 < S10x200.numel
  shapeCasts_S10x200_S10x200 : S10x200.ShapeCasts S10x200
  inb_S1024x10_S1024x10_0_0 : ∀ a, (![0, 0] : Fin 2 → Nat) a + S1024x10.size a ≤ S1024x10.size a
  h_S1024x10 : 0 < S1024x10.numel
  dot_S1024x784_S400x784_S1024x400_1_1_0_0_n_n_wf : DotDims.WF S1024x784 S400x784 S1024x400 [1] [1] [0] [0] [] []
  dot_S1024x400_S200x400_S1024x200_1_1_0_0_n_n_wf : DotDims.WF S1024x400 S200x400 S1024x200 [1] [1] [0] [0] [] []
  dot_S1024x200_S10x200_S1024x10_1_1_0_0_n_n_wf : DotDims.WF S1024x200 S10x200 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x784.size a ≤ S400x784.size a
  hwx0_1 : ∀ i : grid0.Coords, EltTy.bits .f32 = 32 ∨ (Rect.block (s := S400x784) S400x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x400.size a ≤ S200x400.size a
  hwx0_2 : ∀ i : grid0.Coords, EltTy.bits .bf16 = 32 ∨ (Rect.block (s := S200x400) S200x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x200.size a ≤ S10x200.size a
  hwx0_3 : ∀ i : grid0.Coords, EltTy.bits .bf16 = 32 ∨ (Rect.block (s := S10x200) S10x200.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x10.size a ≤ S65536x10.size a
  hwx0_4 : ∀ i : grid0.Coords, EltTy.bits .f32 = 32 ∨ (Rect.block (s := S65536x10) S1024x10.size (cc0_transform_4 i) (hinb0_4 i)).WholeWords (EltTy.packing .f32)

variable [Facts₀]

def dot_S1024x784_S400x784_S1024x400_1_1_0_0_n_n : DotDims S1024x784 S400x784 S1024x400 where
  lhsContracting := [1]
  rhsContracting := [1]
  lhsNonContracting := [0]
  rhsNonContracting := [0]
  lhsBatch := []
  rhsBatch := []
  wf := dot_S1024x784_S400x784_S1024x400_1_1_0_0_n_n_wf
def dot_S1024x400_S200x400_S1024x200_1_1_0_0_n_n : DotDims S1024x400 S200x400 S1024x200 where
  lhsContracting := [1]
  rhsContracting := [1]
  lhsNonContracting := [0]
  rhsNonContracting := [0]
  lhsBatch := []
  rhsBatch := []
  wf := dot_S1024x400_S200x400_S1024x200_1_1_0_0_n_n_wf
def dot_S1024x200_S10x200_S1024x10_1_1_0_0_n_n : DotDims S1024x200 S10x200 S1024x10 where
  lhsContracting := [1]
  rhsContracting := [1]
  lhsNonContracting := [0]
  rhsNonContracting := [0]
  lhsBatch := []
  rhsBatch := []
  wf := dot_S1024x200_S10x200_S1024x10_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S200x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x784 : Shape := ⟨2, ![65536, 784]⟩
abbrev S400x784 : Shape := ⟨2, ![400, 784]⟩
abbrev S200x400 : Shape := ⟨2, ![200, 400]⟩
abbrev S10x200 : Shape := ⟨2, ![10, 200]⟩
abbrev S784x400 : Shape := ⟨2, ![784, 400]⟩
abbrev S65536x400 : Shape := ⟨2, ![65536, 400]⟩
abbrev S400x200 : Shape := ⟨2, ![400, 200]⟩
abbrev S65536x200 : Shape := ⟨2, ![65536, 200]⟩
abbrev S200x10 : Shape := ⟨2, ![200, 10]⟩
abbrev S65536x10 : Shape := ⟨2, ![65536, 10]⟩

abbrev nBuf : Space → Nat
  | .hbm => 25
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S400x784, .f32⟩
  | .hbm, ⟨2, _⟩ => ⟨S200x400, .f32⟩
  | .hbm, ⟨3, _⟩ => ⟨S10x200, .f32⟩
  | .hbm, ⟨4, _⟩ => ⟨S400x784, .f32⟩
  | .hbm, ⟨5, _⟩ => ⟨S400x784, .f32⟩
  | .hbm, ⟨6, _⟩ => ⟨S400x784, .f32⟩
  | .hbm, ⟨7, _⟩ => ⟨S784x400, .f32⟩
  | .hbm, ⟨8, _⟩ => ⟨S65536x400, .f32⟩
  | .hbm, ⟨9, _⟩ => ⟨S65536x400, .f32⟩
  | .hbm, ⟨10, _⟩ => ⟨S65536x400, .f32⟩
  | .hbm, ⟨11, _⟩ => ⟨S65536x400, .f32⟩
  | .hbm, ⟨12, _⟩ => ⟨S200x400, .f32⟩
  | .hbm, ⟨13, _⟩ => ⟨S200x400, .f32⟩
  | .hbm, ⟨14, _⟩ => ⟨S200x400, .f32⟩
  | .hbm, ⟨15, _⟩ => ⟨S400x200, .f32⟩
  | .hbm, ⟨16, _⟩ => ⟨S65536x200, .f32⟩
  | .hbm, ⟨17, _⟩ => ⟨S65536x200, .f32⟩
  | .hbm, ⟨18, _⟩ => ⟨S65536x200, .f32⟩
  | .hbm, ⟨19, _⟩ => ⟨S65536x200, .f32⟩
  | .hbm, ⟨20, _⟩ => ⟨S10x200, .f32⟩
  | .hbm, ⟨21, _⟩ => ⟨S10x200, .f32⟩
  | .hbm, ⟨22, _⟩ => ⟨S10x200, .f32⟩
  | .hbm, ⟨23, _⟩ => ⟨S200x10, .f32⟩
  | .hbm, ⟨24, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  transposes_S400x784_S784x400_1_0 : S400x784.Transposes [1, 0] S784x400
  transposes_S200x400_S400x200_1_0 : S200x400.Transposes [1, 0] S400x200
  transposes_S10x200_S200x10_1_0 : S10x200.Transposes [1, 0] S200x10
  dot_S65536x784_S784x400_S65536x400_1_0_0_1_n_n_wf : DotDims.WF S65536x784 S784x400 S65536x400 [1] [0] [0] [1] [] []
  dot_S65536x400_S400x200_S65536x200_1_0_0_1_n_n_wf : DotDims.WF S65536x400 S400x200 S65536x200 [1] [0] [0] [1] [] []
  dot_S65536x200_S200x10_S65536x10_1_0_0_1_n_n_wf : DotDims.WF S65536x200 S200x10 S65536x10 [1] [0] [0] [1] [] []

variable [Facts₀]

def dot_S65536x784_S784x400_S65536x400_1_0_0_1_n_n : DotDims S65536x784 S784x400 S65536x400 where
  lhsContracting := [1]
  rhsContracting := [0]
  lhsNonContracting := [0]
  rhsNonContracting := [1]
  lhsBatch := []
  rhsBatch := []
  wf := dot_S65536x784_S784x400_S65536x400_1_0_0_1_n_n_wf
def dot_S65536x400_S400x200_S65536x200_1_0_0_1_n_n : DotDims S65536x400 S400x200 S65536x200 where
  lhsContracting := [1]
  rhsContracting := [0]
  lhsNonContracting := [0]
  rhsNonContracting := [1]
  lhsBatch := []
  rhsBatch := []
  wf := dot_S65536x400_S400x200_S65536x200_1_0_0_1_n_n_wf
def dot_S65536x200_S200x10_S65536x10_1_0_0_1_n_n : DotDims S65536x200 S200x10 S65536x10 where
  lhsContracting := [1]
  rhsContracting := [0]
  lhsNonContracting := [0]
  rhsNonContracting := [1]
  lhsBatch := []
  rhsBatch := []
  wf := dot_S65536x200_S200x10_S65536x10_1_0_0_1_n_n_wf

class Facts : Prop extends Facts₀ where

variable [Facts]
-- ==== Proof.SignNet.lean ====
/-
  The function both programs compute, and the algebra that joins them; no program is imported here.

  A three-layer network with sign activations and sign-binarized weights: for a row `x` of the input,
    h1 l = ∑ p, x p · w1 l p,   h2 k = ∑ l, sign (h1 l) · w2 k l,   out j = ∑ k, sign (h2 k) · w3 j k,
  where each `w` is already the sign of a weight matrix. One side writes the binarized value of `z` as
  `z + (sign z − z)` (the straight-through form). On the extended reals that is `sign z` exactly when `z` is
  a real number: at an infinity the difference `sign z − z` is the opposite infinity and the sum is not `sign z`.
  So the two sides agree once every quantity that is binarized this way is real: the weights by hypothesis, the
  first hidden layer because it is a finite sum of products of reals, the second because signs are always real.
-/
import Idealize.ShloMosaic.PureOps.Ideal.Laws
import Idealize.ShloMosaic.Lib.ValueIdx

noncomputable section

open scoped BigOperators

namespace Cert.SignNet

open Idealize.ShloMosaic Idealize.ShloMosaic.ValueIdx

/-! ## Real-valued extended reals -/

/-- An extended real that is a real number (neither infinity). -/
def IsReal (z : EReal) : Prop := ∃ r : ℝ, z = (r : EReal)

theorem isReal_zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The sign of any extended real is one of the reals `-1`, `0`, `1`. -/
theorem isReal_sign (z : EReal) : IsReal (Ideal.sign z) := by
  induction z using EReal.rec with
  | bot => exact ⟨-1, by rw [Ideal.sign_bot]; simp⟩
  | top => exact ⟨1, by rw [Ideal.sign_top]; simp⟩
  | coe r => exact ⟨_, rfl⟩

/-- The straight-through form of a binarization: `z + (sign z − z)`. -/
def straightThrough (z : EReal) : EReal := z + (Ideal.sign z - z)

/-- THE LAW that joins the two sides: on a real number the straight-through form `z + (sign z − z)` is `sign z`. -/
theorem straightThrough_eq_sign {z : EReal} (hz : IsReal z) : straightThrough z = Ideal.sign z := by
  obtain ⟨r, rfl⟩ := hz
  unfold straightThrough
  rw [Ideal.sign_coe, ← EReal.coe_sub, ← EReal.coe_add]
  congr 1
  ring

/-! ## The network, row by row -/

/-- One dense layer on a row: output `j` is the sum over `k` of the row's entry times weight `(j, k)`. -/
def dense {K J : ℕ} (a : Fin K → EReal) (w : Fin J → Fin K → EReal) (j : Fin J) : EReal := ∑ k : Fin K, a k * w j k

/-- A dense layer of real entries and real weights is real. -/
theorem isReal_dense {K J : ℕ} (a : Fin K → EReal) (w : Fin J → Fin K → EReal) (ha : ∀ k, IsReal (a k))
    (hw : ∀ j k, IsReal (w j k)) (j : Fin J) : IsReal (dense a w j) :=
  isReal_sum _ _ fun k _ => (ha k).mul (hw j k)

/-- The three layers on one row, with a sign after the first and after the second. -/
def netRow {d0 d1 d2 d3 : ℕ} (x : Fin d0 → EReal) (w1 : Fin d1 → Fin d0 → EReal) (w2 : Fin d2 → Fin d1 → EReal)
    (w3 : Fin d3 → Fin d2 → EReal) : Fin d3 → EReal :=
  dense (fun k => Ideal.sign (dense (fun l => Ideal.sign (dense x w1 l)) w2 k)) w3

/-- The same three layers with every binarization written in the straight-through form, on weights not yet binarized. -/
def netRowST {d0 d1 d2 d3 : ℕ} (x : Fin d0 → EReal) (W1 : Fin d1 → Fin d0 → EReal) (W2 : Fin d2 → Fin d1 → EReal)
    (W3 : Fin d3 → Fin d2 → EReal) : Fin d3 → EReal :=
  dense (fun k => straightThrough (dense (fun l => straightThrough (dense x (fun l p => straightThrough (W1 l p)) l))
    (fun k l => straightThrough (W2 k l)) k)) (fun j k => straightThrough (W3 j k))

/-- On a real row and real weights the straight-through network is the sign network on the weights' signs. -/
theorem netRowST_eq {d0 d1 d2 d3 : ℕ} (x : Fin d0 → EReal) (W1 : Fin d1 → Fin d0 → EReal) (W2 : Fin d2 → Fin d1 → EReal)
    (W3 : Fin d3 → Fin d2 → EReal) (hx : ∀ p, IsReal (x p)) (h1 : ∀ l p, IsReal (W1 l p)) (h2 : ∀ k l, IsReal (W2 k l))
    (h3 : ∀ j k, IsReal (W3 j k)) :
    netRowST x W1 W2 W3 = netRow x (fun l p => Ideal.sign (W1 l p)) (fun k l => Ideal.sign (W2 k l)) (fun j k => Ideal.sign (W3 j k)) := by
  funext j
  have e1 : (fun l p => straightThrough (W1 l p)) = fun l p => Ideal.sign (W1 l p) :=
    funext fun l => funext fun p => straightThrough_eq_sign (h1 l p)
  have e2 : (fun k l => straightThrough (W2 k l)) = fun k l => Ideal.sign (W2 k l) :=
    funext fun k => funext fun l => straightThrough_eq_sign (h2 k l)
  have e3 : (fun j k => straightThrough (W3 j k)) = fun j k => Ideal.sign (W3 j k) :=
    funext fun j => funext fun k => straightThrough_eq_sign (h3 j k)
  have r1 : ∀ l, IsReal (dense x (fun l p => Ideal.sign (W1 l p)) l) :=
    isReal_dense _ _ hx fun _ _ => isReal_sign _
  have r2 : ∀ k, IsReal (dense (fun l => Ideal.sign (dense x (fun l p => Ideal.sign (W1 l p)) l)) (fun k l => Ideal.sign (W2 k l)) k) :=
    isReal_dense _ _ (fun _ => isReal_sign _) fun _ _ => isReal_sign _
  have s1 : (fun l => straightThrough (dense x (fun l p => Ideal.sign (W1 l p)) l))
      = fun l => Ideal.sign (dense x (fun l p => Ideal.sign (W1 l p)) l) := funext fun l => straightThrough_eq_sign (r1 l)
  unfold netRowST netRow
  rw [e1, e2, e3, s1]
  congr 1
  funext k
  exact straightThrough_eq_sign (r2 k)

/-! ## The result array -/

/-- THE SPECIFICATION: entry `(r, j)` of the result is output `j` of the sign network on row `r` of `X`, with the signs
    of the three weight matrices. -/
def bnnAt (X : (⟨2, ![65536, 784]⟩ : Shape).Idx → EReal) (W1 : (⟨2, ![400, 784]⟩ : Shape).Idx → EReal)
    (W2 : (⟨2, ![200, 400]⟩ : Shape).Idx → EReal) (W3 : (⟨2, ![10, 200]⟩ : Shape).Idx → EReal) (r : Fin 65536) (j : Fin 10) : EReal :=
  netRow (fun p : Fin 784 => X (ix2 r p)) (fun (l : Fin 400) (p : Fin 784) => Ideal.sign (W1 (ix2 l p)))
    (fun (k : Fin 200) (l : Fin 400) => Ideal.sign (W2 (ix2 k l))) (fun (j : Fin 10) (k : Fin 200) => Ideal.sign (W3 (ix2 j k))) j

/-- The result as an array. -/
def bnn (X : (⟨2, ![65536, 784]⟩ : Shape).Idx → EReal) (W1 : (⟨2, ![400, 784]⟩ : Shape).Idx → EReal)
    (W2 : (⟨2, ![200, 400]⟩ : Shape).Idx → EReal) (W3 : (⟨2, ![10, 200]⟩ : Shape).Idx → EReal) :
    (⟨2, ![65536, 10]⟩ : Shape).Idx → EReal :=
  fun i => bnnAt X W1 W2 W3 (i 0) (i 1)

end Cert.SignNet

end
-- ==== Proof.FiniteInputs.lean ====
/-
  From the precondition to real entries.

  The precondition is the conjunction, over the four inputs, of "every entry's absolute value is below +infinity".
  On the extended reals the absolute value of either infinity is +infinity, which is not below itself, so an entry
  that passes the test is a real number.
-/
import proofs.«102389_j16776142258911_2_alg».proof.Pre_finite_inputs
import proofs.«102389_j16776142258911_2_alg».proof.Proof.SignNet
import Idealize.ShloMosaic.Lib.ReduceAll
import Idealize.ShloMosaic.Lib.ValueIdx
import Idealize.ShloMosaic.PureOps.Ideal.Laws

noncomputable section

namespace Cert.FiniteInputs

open Cert.SignNet Cert.Pre_finite_inputs Idealize.ShloMosaic Idealize.ShloMosaic.ValueIdx

/-- The scalar shape has one index. -/
instance : Subsingleton S_.Idx := ⟨fun a b => funext fun d => d.elim0⟩

/-- The bound the precondition compares against is +infinity. -/
theorem inf_pattern : Ideal.ofBits .f32 0x7F800000#32 = ⊤ := by simp [Ideal.ofBits, Ideal.ieee]

/-- An extended real whose absolute value is below +infinity is a real number. -/
theorem isReal_of_abs_lt_inf (z : EReal)
    (h : Ideal.cmp .olt (max z (-z)) (Ideal.ofBits .f32 0x7F800000#32) = 1#1) : IsReal z := by
  rw [inf_pattern] at h
  induction z using EReal.rec with
  | bot => simp [Ideal.cmp] at h
  | top => simp [Ideal.cmp] at h
  | coe r => exact ⟨r, rfl⟩

/-- One input: if "all entries have absolute value below +infinity" came out true, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ix0 = 1#1) (i : s.Idx) : IsReal (x i) :=
  isReal_of_abs_lt_inf _ (Host.reduce_andi_all _ _ hr hu ix0 e i)

variable [Cert.Pre_finite_inputs.Facts]

/-- THE PRECONDITION READ: all four inputs have real entries. -/
theorem reals_of_pre (X : FVec Ideal S65536x784 .f32) (W1 : FVec Ideal S400x784 .f32) (W2 : FVec Ideal S200x400 .f32)
    (W3 : FVec Ideal S10x200 .f32) (h : fn (F := Ideal) X W1 W2 W3 = fun _ => 1#1) :
    (∀ i, IsReal (X i)) ∧ (∀ i, IsReal (W1 i)) ∧ (∀ i, IsReal (W2 i)) ∧ (∀ i, IsReal (W3 i)) := by
  have h0 := congrFun h ix0
  dsimp only [fn, fn_part1] at h0
  obtain ⟨h012, h3⟩ := IntOp.andi_eq_one.1 h0
  obtain ⟨h01, h2⟩ := IntOp.andi_eq_one.1 h012
  obtain ⟨hx, h1⟩ := IntOp.andi_eq_one.1 h01
  exact ⟨all_real X _ _ _ hx, all_real W1 _ _ _ h1, all_real W2 _ _ _ h2, all_real W3 _ _ _ h3⟩

end Cert.FiniteInputs

end
-- ==== Proof.ReferenceValue.lean ====
/-
  The reference's result, read at an index, is the specification.

  The reference transposes each binarized weight matrix and multiplies on the right, so entry `(r, l)` of a product
  is the sum over `p` of the left operand at `(r, p)` times the binarized weight at `(l, p)`: a dense layer on row `r`.
  Every binarization there is in the straight-through form `z + (sign z − z)`. Read this way its result at `(r, j)` is
  the straight-through network on row `r`; on real inputs that is the sign network.
-/
import proofs.«102389_j16776142258911_2_alg».proof.Proof.Gen.ReferenceIdeal.Read
import proofs.«102389_j16776142258911_2_alg».proof.Proof.SignNet
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.SignNet Idealize.ShloMosaic Idealize.ShloMosaic.ValueIdx

variable (x0 : (⟨S65536x784, .f32⟩ : BufTy).Contents (Elt Ideal)) (x1 : (⟨S400x784, .f32⟩ : BufTy).Contents (Elt Ideal))
  (x2 : (⟨S200x400, .f32⟩ : BufTy).Contents (Elt Ideal)) (x3 : (⟨S10x200, .f32⟩ : BufTy).Contents (Elt Ideal))

/-! ## Where each product reads its operands -/

theorem lidx4 (r : Fin 65536) (l : Fin 400) (p : Fin 784) : lidx_main_v4 (ix2 r l) p = ix2 r p :=
  funext fun a => Fin.ext (by match a with | ⟨0, _⟩ => rfl | ⟨1, _⟩ => rfl)
theorem ridx4 (r : Fin 65536) (l : Fin 400) (p : Fin 784) : idx_main_v3 (ridx_main_v4 (ix2 r l) p) = ix2 l p :=
  funext fun a => Fin.ext (by match a with | ⟨0, _⟩ => rfl | ⟨1, _⟩ => rfl)
theorem lidx12 (r : Fin 65536) (k : Fin 200) (l : Fin 400) : lidx_main_v12 (ix2 r k) l = ix2 r l :=
  funext fun a => Fin.ext (by match a with | ⟨0, _⟩ => rfl | ⟨1, _⟩ => rfl)
theorem ridx12 (r : Fin 65536) (k : Fin 200) (l : Fin 400) : idx_main_v11 (ridx_main_v12 (ix2 r k) l) = ix2 k l :=
  funext fun a => Fin.ext (by match a with | ⟨0, _⟩ => rfl | ⟨1, _⟩ => rfl)
theorem lidx20 (r : Fin 65536) (j : Fin 10) (k : Fin 200) : lidx_main_v20 (ix2 r j) k = ix2 r k :=
  funext fun a => Fin.ext (by match a with | ⟨0, _⟩ => rfl | ⟨1, _⟩ => rfl)
theorem ridx20 (r : Fin 65536) (j : Fin 10) (k : Fin 200) : idx_main_v19 (ridx_main_v20 (ix2 r j) k) = ix2 j k :=
  funext fun a => Fin.ext (by match a with | ⟨0, _⟩ => rfl | ⟨1, _⟩ => rfl)

/-! ## The binarized values -/

/-- The reference's binarized first weight matrix at an entry. -/
theorem w1_apply (i : S400x784.Idx) : val_main_v2 (F := Ideal) x1 i = straightThrough (x1 i) := rfl
/-- The reference's binarized second weight matrix at an entry. -/
theorem w2_apply (i : S200x400.Idx) : val_main_v10 (F := Ideal) x2 i = straightThrough (x2 i) := rfl
/-- The reference's binarized third weight matrix at an entry. -/
theorem w3_apply (i : S10x200.Idx) : val_main_v18 (F := Ideal) x3 i = straightThrough (x3 i) := rfl
/-- The reference's binarized first hidden layer at an entry. -/
theorem h1b_apply (i : S65536x400.Idx) : val_main_v7 (F := Ideal) x0 x1 i = straightThrough (val_main_v4 (F := Ideal) x0 x1 i) := rfl
/-- The reference's binarized second hidden layer at an entry. -/
theorem h2b_apply (i : S65536x200.Idx) : val_main_v15 (F := Ideal) x0 x1 x2 i = straightThrough (val_main_v12 (F := Ideal) x0 x1 x2 i) := rfl

/-! ## The three products as dense layers on a row -/

theorem h1_apply (r : Fin 65536) (l : Fin 400) :
    val_main_v4 (F := Ideal) x0 x1 (ix2 r l)
      = dense (fun p : Fin 784 => x0 (ix2 r p)) (fun (l : Fin 400) (p : Fin 784) => straightThrough (x1 (ix2 l p))) l := by
  rw [val_main_v4_apply]
  unfold dense
  refine Finset.sum_congr rfl fun p _ => ?_
  rw [lidx4, val_main_v3_apply, ridx4, w1_apply]

theorem h2_apply (r : Fin 65536) (k : Fin 200) :
    val_main_v12 (F := Ideal) x0 x1 x2 (ix2 r k)
      = dense (fun l : Fin 400 => straightThrough (val_main_v4 (F := Ideal) x0 x1 (ix2 r l)))
          (fun (k : Fin 200) (l : Fin 400) => straightThrough (x2 (ix2 k l))) k := by
  rw [val_main_v12_apply]
  unfold dense
  refine Finset.sum_congr rfl fun l _ => ?_
  rw [lidx12, val_main_v11_apply, ridx12, w2_apply, h1b_apply]

theorem out_apply (r : Fin 65536) (j : Fin 10) :
    val_main_v20 (F := Ideal) x0 x1 x2 x3 (ix2 r j)
      = dense (fun k : Fin 200 => straightThrough (val_main_v12 (F := Ideal) x0 x1 x2 (ix2 r k)))
          (fun (j : Fin 10) (k : Fin 200) => straightThrough (x3 (ix2 j k))) j := by
  rw [val_main_v20_apply]
  unfold dense
  refine Finset.sum_congr rfl fun k _ => ?_
  rw [lidx20, val_main_v19_apply, ridx20, w3_apply, h2b_apply]

/-- The reference's result at `(r, j)` is the straight-through network on row `r`. -/
theorem ref_apply (r : Fin 65536) (j : Fin 10) :
    val_main_v20 (F := Ideal) x0 x1 x2 x3 (ix2 r j)
      = netRowST (fun p : Fin 784 => x0 (ix2 r p)) (fun (l : Fin 400) (p : Fin 784) => x1 (ix2 l p))
          (fun (k : Fin 200) (l : Fin 400) => x2 (ix2 k l)) (fun (j : Fin 10) (k : Fin 200) => x3 (ix2 j k)) j := by
  rw [out_apply]
  unfold netRowST
  refine congrArg (fun f => dense f _ j) (funext fun k => ?_)
  show straightThrough (val_main_v12 (F := Ideal) x0 x1 x2 (ix2 r k)) = _
  rw [h2_apply]
  refine congrArg (fun f => straightThrough (dense f _ k)) (funext fun l => ?_)
  show straightThrough (val_main_v4 (F := Ideal) x0 x1 (ix2 r l)) = _
  rw [h1_apply]

/-- THE REFERENCE IS THE SPECIFICATION on real inputs. -/
theorem ref_eq_bnn (hx : ∀ i, IsReal (x0 i)) (h1 : ∀ i, IsReal (x1 i)) (h2 : ∀ i, IsReal (x2 i)) (h3 : ∀ i, IsReal (x3 i)) :
    val_main_v20 (F := Ideal) x0 x1 x2 x3 = bnn x0 x1 x2 x3 := by
  funext i
  obtain ⟨r, j, rfl⟩ : ∃ (r : Fin 65536) (j : Fin 10), i = ix2 r j := ⟨i 0, i 1, eq_ix2 i⟩
  rw [ref_apply, netRowST_eq _ _ _ _ (fun p => hx _) (fun l p => h1 _) (fun k l => h2 _) (fun j k => h3 _)]
  rfl

end Cert.ReferenceIdeal.RefValue

end
-- ==== Proof.KernelPayload.lean ====
/-
  The kernel body's arithmetic, read at one entry of its output block.

  The body multiplies the 1024-row block of the input by the first weight block, contracting the second axis of
  both (so entry `(p, l)` is the sum over `k` of `x (p, k) · w (l, k)`), takes signs, and does the same twice more.
  Its sign is written as a selection on `|v| > 0` between a one carrying `v`'s sign and `v` itself, which is the
  sign function at every extended real; a change of float format is the identity; a matrix product into a zero
  accumulator is the plain sum. So entry `(p, q)` of the block the body stores is output `q` of the sign network on
  row `p` of the input block, with the three loaded weight blocks as they are.
-/
import proofs.«102389_j16776142258911_2_alg».proof.Proof.Gen.KernelIdeal.Skeleton
import proofs.«102389_j16776142258911_2_alg».proof.Proof.SignNet
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.SignNet Idealize.ShloMosaic Idealize.ShloMosaic.ValueIdx

/-- The body's sign of a vector is the sign function at each entry, the infinities included. -/
theorem selectSign_eq {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => Ideal.sign (x i) :=
  funext fun i => Ideal.jnp_sign_eq_sign_f32 (x i)

/-- The first product at entry `(p, l)`: row `p` of the input block against row `l` of the weight block. -/
theorem layer1_apply (a : FVec Ideal S1024x784 .f32) (b : FVec Ideal S400x784 .f32) (p : Fin 1024) (l : Fin 400) :
    matmul dot_S1024x784_S400x784_S1024x400_1_1_0_0_n_n (some .fp32) a b (constant (F := Ideal) S1024x400 .f32 0x00000000#32) (ix2 p l)
      = dense (fun k : Fin 784 => a (ix2 p k)) (fun (l : Fin 400) (k : Fin 784) => b (ix2 l k)) l := by
  unfold dense
  simp only [matmul]
  rw [Ideal.matmul_constant_zero_apply, ← Equiv.sum_comp (contrEquiv1 dot_S1024x784_S400x784_S1024x400_1_1_0_0_n_n 784 rfl rfl).symm]
  refine Finset.sum_congr rfl fun k _ => ?_
  have hk := contrEquiv1_symm_val dot_S1024x784_S400x784_S1024x400_1_1_0_0_n_n 784 rfl rfl k
  have el : dot_S1024x784_S400x784_S1024x400_1_1_0_0_n_n.lhsIdx (ix2 p l) ((contrEquiv1 dot_S1024x784_S400x784_S1024x400_1_1_0_0_n_n 784 rfl rfl).symm k) = ix2 p k := funext fun a => Fin.ext (by
    match a with
    | ⟨0, _⟩ =>
      show (dot_S1024x784_S400x784_S1024x400_1_1_0_0_n_n.lhsIdx (ix2 p l) _ 0).val = p.val
      unfold DotDims.lhsIdx
      rw [dif_neg (show ¬(0 : Fin S1024x784.rank) ∈ dot_S1024x784_S400x784_S1024x400_1_1_0_0_n_n.lhsBatch by decide), dif_pos (show (0 : Fin S1024x784.rank) ∈ dot_S1024x784_S400x784_S1024x400_1_1_0_0_n_n.lhsNonContracting by decide)]
      rfl
    | ⟨1, _⟩ => exact (dot_S1024x784_S400x784_S1024x400_1_1_0_0_n_n.lhsIdx_val_of_single rfl _ _).trans hk)
  have er : dot_S1024x784_S400x784_S1024x400_1_1_0_0_n_n.rhsIdx (ix2 p l) ((contrEquiv1 dot_S1024x784_S400x784_S1024x400_1_1_0_0_n_n 784 rfl rfl).symm k) = ix2 l k := funext fun a => Fin.ext (by
    match a with
    | ⟨0, _⟩ =>
      show (dot_S1024x784_S400x784_S1024x400_1_1_0_0_n_n.rhsIdx (ix2 p l) _ 0).val = l.val
      unfold DotDims.rhsIdx
      rw [dif_neg (show ¬(0 : Fin S400x784.rank) ∈ dot_S1024x784_S400x784_S1024x400_1_1_0_0_n_n.rhsBatch by decide), dif_pos (show (0 : Fin S400x784.rank) ∈ dot_S1024x784_S400x784_S1024x400_1_1_0_0_n_n.rhsNonContracting by decide)]
      rfl
    | ⟨1, _⟩ => exact (dot_S1024x784_S400x784_S1024x400_1_1_0_0_n_n.rhsIdx_val_of_single rfl _ _).trans hk)
  rw [el, er]

/-- The second product at entry `(p, l)`: row `p` of the first hidden block's signs against row `l` of the second weight block. -/
theorem layer2_apply (a : FVec Ideal S1024x400 .bf16) (b : FVec Ideal S200x400 .bf16) (p : Fin 1024) (l : Fin 200) :
    matmul dot_S1024x400_S200x400_S1024x200_1_1_0_0_n_n none a b (constant (F := Ideal) S1024x200 .f32 0x00000000#32) (ix2 p l)
      = dense (fun k : Fin 400 => a (ix2 p k)) (fun (l : Fin 200) (k : Fin 400) => b (ix2 l k)) l := by
  unfold dense
  simp only [matmul]
  rw [Ideal.matmul_constant_zero_apply, ← Equiv.sum_comp (contrEquiv1 dot_S1024x400_S200x400_S1024x200_1_1_0_0_n_n 400 rfl rfl).symm]
  refine Finset.sum_congr rfl fun k _ => ?_
  have hk := contrEquiv1_symm_val dot_S1024x400_S200x400_S1024x200_1_1_0_0_n_n 400 rfl rfl k
  have el : dot_S1024x400_S200x400_S1024x200_1_1_0_0_n_n.lhsIdx (ix2 p l) ((contrEquiv1 dot_S1024x400_S200x400_S1024x200_1_1_0_0_n_n 400 rfl rfl).symm k) = ix2 p k := funext fun a => Fin.ext (by
    match a with
    | ⟨0, _⟩ =>
      show (dot_S1024x400_S200x400_S1024x200_1_1_0_0_n_n.lhsIdx (ix2 p l) _ 0).val = p.val
      unfold DotDims.lhsIdx
      rw [dif_neg (show ¬(0 : Fin S1024x400.rank) ∈ dot_S1024x400_S200x400_S1024x200_1_1_0_0_n_n.lhsBatch by decide), dif_pos (show (0 : Fin S1024x400.rank) ∈ dot_S1024x400_S200x400_S1024x200_1_1_0_0_n_n.lhsNonContracting by decide)]
      rfl
    | ⟨1, _⟩ => exact (dot_S1024x400_S200x400_S1024x200_1_1_0_0_n_n.lhsIdx_val_of_single rfl _ _).trans hk)
  have er : dot_S1024x400_S200x400_S1024x200_1_1_0_0_n_n.rhsIdx (ix2 p l) ((contrEquiv1 dot_S1024x400_S200x400_S1024x200_1_1_0_0_n_n 400 rfl rfl).symm k) = ix2 l k := funext fun a => Fin.ext (by
    match a with
    | ⟨0, _⟩ =>
      show (dot_S1024x400_S200x400_S1024x200_1_1_0_0_n_n.rhsIdx (ix2 p l) _ 0).val = l.val
      unfold DotDims.rhsIdx
      rw [dif_neg (show ¬(0 : Fin S200x400.rank) ∈ dot_S1024x400_S200x400_S1024x200_1_1_0_0_n_n.rhsBatch by decide), dif_pos (show (0 : Fin S200x400.rank) ∈ dot_S1024x400_S200x400_S1024x200_1_1_0_0_n_n.rhsNonContracting by decide)]
      rfl
    | ⟨1, _⟩ => exact (dot_S1024x400_S200x400_S1024x200_1_1_0_0_n_n.rhsIdx_val_of_single rfl _ _).trans hk)
  rw [el, er]

/-- The third product at entry `(p, l)`: row `p` of the second hidden block's signs against row `l` of the third weight block. -/
theorem layer3_apply (a : FVec Ideal S1024x200 .bf16) (b : FVec Ideal S10x200 .bf16) (p : Fin 1024) (l : Fin 10) :
    matmul dot_S1024x200_S10x200_S1024x10_1_1_0_0_n_n none a b (constant (F := Ideal) S1024x10 .f32 0x00000000#32) (ix2 p l)
      = dense (fun k : Fin 200 => a (ix2 p k)) (fun (l : Fin 10) (k : Fin 200) => b (ix2 l k)) l := by
  unfold dense
  simp only [matmul]
  rw [Ideal.matmul_constant_zero_apply, ← Equiv.sum_comp (contrEquiv1 dot_S1024x200_S10x200_S1024x10_1_1_0_0_n_n 200 rfl rfl).symm]
  refine Finset.sum_congr rfl fun k _ => ?_
  have hk := contrEquiv1_symm_val dot_S1024x200_S10x200_S1024x10_1_1_0_0_n_n 200 rfl rfl k
  have el : dot_S1024x200_S10x200_S1024x10_1_1_0_0_n_n.lhsIdx (ix2 p l) ((contrEquiv1 dot_S1024x200_S10x200_S1024x10_1_1_0_0_n_n 200 rfl rfl).symm k) = ix2 p k := funext fun a => Fin.ext (by
    match a with
    | ⟨0, _⟩ =>
      show (dot_S1024x200_S10x200_S1024x10_1_1_0_0_n_n.lhsIdx (ix2 p l) _ 0).val = p.val
      unfold DotDims.lhsIdx
      rw [dif_neg (show ¬(0 : Fin S1024x200.rank) ∈ dot_S1024x200_S10x200_S1024x10_1_1_0_0_n_n.lhsBatch by decide), dif_pos (show (0 : Fin S1024x200.rank) ∈ dot_S1024x200_S10x200_S1024x10_1_1_0_0_n_n.lhsNonContracting by decide)]
      rfl
    | ⟨1, _⟩ => exact (dot_S1024x200_S10x200_S1024x10_1_1_0_0_n_n.lhsIdx_val_of_single rfl _ _).trans hk)
  have er : dot_S1024x200_S10x200_S1024x10_1_1_0_0_n_n.rhsIdx (ix2 p l) ((contrEquiv1 dot_S1024x200_S10x200_S1024x10_1_1_0_0_n_n 200 rfl rfl).symm k) = ix2 l k := funext fun a => Fin.ext (by
    match a with
    | ⟨0, _⟩ =>
      show (dot_S1024x200_S10x200_S1024x10_1_1_0_0_n_n.rhsIdx (ix2 p l) _ 0).val = l.val
      unfold DotDims.rhsIdx
      rw [dif_neg (show ¬(0 : Fin S10x200.rank) ∈ dot_S1024x200_S10x200_S1024x10_1_1_0_0_n_n.rhsBatch by decide), dif_pos (show (0 : Fin S10x200.rank) ∈ dot_S1024x200_S10x200_S1024x10_1_1_0_0_n_n.rhsNonContracting by decide)]
      rfl
    | ⟨1, _⟩ => exact (dot_S1024x200_S10x200_S1024x10_1_1_0_0_n_n.rhsIdx_val_of_single rfl _ _).trans hk)
  rw [el, er]

/-- THE BODY'S PAYLOAD at entry `(p, q)` of the output block: output `q` of the sign network on row `p` of the input block,
    over the three weight blocks as loaded (they hold signs already). -/
theorem pay_apply (v0 : Vec Ideal S1024x784 .f32) (v1 : Vec Ideal S400x784 .f32) (v15 : Vec Ideal S200x400 .bf16)
    (v29 : Vec Ideal S10x200 .bf16) (p : Fin 1024) (q : Fin 10) :
    k0_pay1 (F := Ideal) v0 v1 v15 v29 (ix2 p q)
      = netRow (fun k : Fin 784 => v0 (ix2 p k)) (fun (l : Fin 400) (k : Fin 784) => v1 (ix2 l k))
          (fun (k : Fin 200) (l : Fin 400) => v15 (ix2 k l)) (fun (j : Fin 10) (k : Fin 200) => v29 (ix2 j k)) q := by
  unfold k0_pay1
  simp only [selectSign_eq, shapeCast_self]
  rw [layer3_apply]
  unfold netRow
  refine congrArg (fun f => dense f _ q) (funext fun k => ?_)
  show Ideal.sign (matmul (F := Ideal) _ none _ _ _ (ix2 p k)) = _
  rw [layer2_apply]
  refine congrArg (fun f => Ideal.sign (dense f _ k)) (funext fun l => ?_)
  show Ideal.sign (matmul (F := Ideal) _ (some .fp32) _ _ _ (ix2 p l)) = _
  rw [layer1_apply]

end Cert.KernelIdeal.Payload

end
-- ==== Proof.KernelArray.lean ====
/-
  From the blocks the kernel writes to the whole result array.

  The grid has 64 points. Point `t` stages rows `1024·t … 1024·t + 1023` of the input and the three weight arrays
  whole, and writes back rows `1024·t … 1024·t + 1023` of the result. The weight arrays the region finds were written
  by the host just before it: the signs of the three weight matrices (the change of float format is the identity).
  So what point `t` writes at local entry `(p, q)` is the specification at `(1024·t + p, q)`; the 64 row blocks tile the
  result (row `r` is in block `r / 1024`), and the array ends holding the specification everywhere.
-/
import proofs.«102389_j16776142258911_2_alg».proof.Proof.Gen.KernelIdeal.Value
import proofs.«102389_j16776142258911_2_alg».proof.Proof.KernelPayload
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Payload Cert.SignNet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the region finds in the weight windows -/

/-- The first weight window's array is the sign of the first weight matrix. -/
theorem V_w1 (c : Dev nD) : @Eq (S400x784.Idx → EReal) (V m c main_v0)
    (Host.sign (F := Ideal) (s := S400x784) (φ := .f32) (m ((c : Thread nD τ).loc main_arg1))) := by
  dsimp only [Gen.V, Gen.hostOps0]; after_results

/-- The second weight window's array is the sign of the second weight matrix (the format change is the identity). -/
theorem V_w2 (c : Dev nD) : @Eq (S200x400.Idx → EReal) (V m c main_v2)
    (Host.sign (F := Ideal) (s := S200x400) (φ := .f32) (m ((c : Thread nD τ).loc main_arg2))) := by
  dsimp only [Gen.V, Gen.hostOps0]; after_results; rfl

/-- The third weight window's array is the sign of the third weight matrix. -/
theorem V_w3 (c : Dev nD) : @Eq (S10x200.Idx → EReal) (V m c main_v4)
    (Host.sign (F := Ideal) (s := S10x200) (φ := .f32) (m ((c : Thread nD τ).loc main_arg3))) := by
  dsimp only [Gen.V, Gen.hostOps0]; after_results; rfl

/-! ## The index maps over the grid -/

/-- The input's row block moves with the output's; every other block index is zero. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every one of the 64 row blocks of the result is some point's. -/
theorem idx_onto : ∀ q0 : Fin 64, ∃ t : Fin cfg0.N, win0_4.index t = ![q0.val, 0] :=
  (by decide +kernel : ∀ q0 : Fin 64, ∃ t : Fin grid0.N, win0_4.index t = ![q0.val, 0])

/-! ## One point -/

/-- The body's payload at a local entry, when the input block's row is row `i 0` of `X` and the weight blocks hold the
    signs of `W1`, `W2`, `W3`, is the specification at `i`. -/
theorem pay_eq_bnn (x0 : Vec Ideal S1024x784 .f32) (x1 : Vec Ideal S400x784 .f32) (x2 : Vec Ideal S200x400 .bf16)
    (x3 : Vec Ideal S10x200 .bf16) (X : (⟨2, ![65536, 784]⟩ : Shape).Idx → EReal) (W1 : (⟨2, ![400, 784]⟩ : Shape).Idx → EReal)
    (W2 : (⟨2, ![200, 400]⟩ : Shape).Idx → EReal) (W3 : (⟨2, ![10, 200]⟩ : Shape).Idx → EReal)
    (j : S1024x10.Idx) (i : S65536x10.Idx)
    (hx : ∀ k : Fin 784, x0 (ix2 (j 0) k) = X (ix2 (i 0) k))
    (h1 : ∀ (l : Fin 400) (k : Fin 784), x1 (ix2 l k) = Ideal.sign (W1 (ix2 l k)))
    (h2 : ∀ (k : Fin 200) (l : Fin 400), x2 (ix2 k l) = Ideal.sign (W2 (ix2 k l)))
    (h3 : ∀ (q : Fin 10) (k : Fin 200), x3 (ix2 q k) = Ideal.sign (W3 (ix2 q k)))
    (hq : (j 1).val = (i 1).val) :
    k0_pay1 (F := Ideal) x0 x1 x2 x3 j = bnn X W1 W2 W3 i := by
  refine (congrArg (k0_pay1 (F := Ideal) x0 x1 x2 x3) (eq_ix2 j)).trans ?_
  refine (pay_apply x0 x1 x2 x3 (j 0) (j 1)).trans ?_
  show _ = bnnAt X W1 W2 W3 (i 0) (i 1)
  unfold bnnAt
  have ex : (fun k : Fin 784 => x0 (ix2 (j 0) k)) = fun k : Fin 784 => X (ix2 (i 0) k) := funext hx
  have e1 : (fun (l : Fin 400) (k : Fin 784) => x1 (ix2 l k)) = fun (l : Fin 400) (k : Fin 784) => Ideal.sign (W1 (ix2 l k)) :=
    funext fun l => funext (h1 l)
  have e2 : (fun (k : Fin 200) (l : Fin 400) => x2 (ix2 k l)) = fun (k : Fin 200) (l : Fin 400) => Ideal.sign (W2 (ix2 k l)) :=
    funext fun k => funext (h2 k)
  have e3 : (fun (q : Fin 10) (k : Fin 200) => x3 (ix2 q k)) = fun (q : Fin 10) (k : Fin 200) => Ideal.sign (W3 (ix2 q k)) :=
    funext fun q => funext (h3 q)
  exact congr (congr (congr (congr (congrArg netRow ex) e1) e2) e3) (Fin.ext hq)

/-- WHAT POINT `t` WRITES BACK is block `t` of the specification of the argument arrays. -/
theorem flushed_eq (c : Dev nD) (t : Fin cfg0.N) :
    (dats m 0 c).flushed 4 t = ((cfg0.win 4).blk t).view.read (Elt Ideal)
      (bnn (m ((c : Thread nD τ).loc main_arg0)) (m ((c : Thread nD τ).loc main_arg1)) (m ((c : Thread nD τ).loc main_arg2))
        (m ((c : Thread nD τ).loc main_arg3))) := by
  rw [Cert.KernelIdeal.Value.flushed4]
  unfold out0_4
  rw [View.canon_unit_zero hz]
  simp only [View.ld_unit_zero (S := S1024x784) hz, View.ld_unit_zero (S := S400x784) hz, View.ld_unit_zero (S := S200x400) hz,
    View.ld_unit_zero (S := S10x200) hz]
  obtain ⟨e00, e01, e10, e11, e20, e21, e30, e31, e41⟩ := idx_facts t
  funext j
  refine pay_eq_bnn (iblk m c 0 t) (iblk m c 1 t) (iblk m c 2 t) (iblk m c 3 t) (m ((c : Thread nD τ).loc main_arg0))
    (m ((c : Thread nD τ).loc main_arg1)) (m ((c : Thread nD τ).loc main_arg2)) (m ((c : Thread nD τ).loc main_arg3))
    j (((cfg0.win 4).blk t).view.emb j) ?_ ?_ ?_ ?_ ?_
  · intro k
    show V m c main_arg0 (((cfg0.win 0).blk t).view.emb (ix2 (j 0) k)) = _
    rw [V_main_arg0]
    refine congrArg _ (funext fun a => Fin.ext ?_)
    match a with
    | ⟨0, _⟩ => show win0_0.index t (0 : Fin 2) * 1024 + 1 * (j 0).val = win0_4.index t (0 : Fin 2) * 1024 + 1 * (j 0).val; rw [e00]
    | ⟨1, _⟩ => show win0_0.index t (1 : Fin 2) * 784 + 1 * k.val = k.val; rw [e01]; omega
  · intro l k
    show V m c main_v0 (((cfg0.win 1).blk t).view.emb (ix2 l k)) = _
    refine (congrFun (V_w1 m c) _).trans ?_
    show Ideal.sign (m ((c : Thread nD τ).loc main_arg1) _) = _
    refine congrArg (fun z => Ideal.sign (m ((c : Thread nD τ).loc main_arg1) z)) (funext fun a => Fin.ext ?_)
    match a with
    | ⟨0, _⟩ => show win0_1.index t (0 : Fin 2) * 400 + 1 * l.val = l.val; rw [e10]; omega
    | ⟨1, _⟩ => show win0_1.index t (1 : Fin 2) * 784 + 1 * k.val = k.val; rw [e11]; omega
  · intro k l
    show V m c main_v2 (((cfg0.win 2).blk t).view.emb (ix2 k l)) = _
    refine (congrFun (V_w2 m c) _).trans ?_
    show Ideal.sign (m ((c : Thread nD τ).loc main_arg2) _) = _
    refine congrArg (fun z => Ideal.sign (m ((c : Thread nD τ).loc main_arg2) z)) (funext fun a => Fin.ext ?_)
    match a with
    | ⟨0, _⟩ => show win0_2.index t (0 : Fin 2) * 200 + 1 * k.val = k.val; rw [e20]; omega
    | ⟨1, _⟩ => show win0_2.index t (1 : Fin 2) * 400 + 1 * l.val = l.val; rw [e21]; omega
  · intro q k
    show V m c main_v4 (((cfg0.win 3).blk t).view.emb (ix2 q k)) = _
    refine (congrFun (V_w3 m c) _).trans ?_
    show Ideal.sign (m ((c : Thread nD τ).loc main_arg3) _) = _
    refine congrArg (fun z => Ideal.sign (m ((c : Thread nD τ).loc main_arg3) z)) (funext fun a => Fin.ext ?_)
    match a with
    | ⟨0, _⟩ => show win0_3.index t (0 : Fin 2) * 10 + 1 * q.val = q.val; rw [e30]; omega
    | ⟨1, _⟩ => show win0_3.index t (1 : Fin 2) * 200 + 1 * k.val = k.val; rw [e31]; omega
  · show (j 1).val = win0_4.index t (1 : Fin 2) * 10 + 1 * (j 1).val
    rw [e41]; omega

/-! ## The cover -/

/-- An index of the result is in point `t`'s block iff each coordinate is in the block's range on its axis. -/
theorem mem_blk (t : Fin cfg0.N) (i : S65536x10.Idx) :
    i ∈ ((cfg0.win 4).blk t).view.set ↔ ∀ a : Fin 2, win0_4.index t a * S1024x10.size a ≤ (i a).val ∧ (i a).val < win0_4.index t a * S1024x10.size a + S1024x10.size a := by
  show i ∈ ((View.whole main_v5).slice (win0_4.rect t)).set ↔ _
  rw [View.set_slice_whole, Rect.mem_set_unit]
  exact Iff.rfl

/-- Every entry of the result is in the block of the point that owns its row block. -/
theorem cover (i : S65536x10.Idx) : ∃ t : Fin cfg0.N, (cfg0.win 4).flush t = true ∧ i ∈ ((cfg0.win 4).blk t).view.set := by
  have hi0 : (i 0).val < 65536 := (i 0).isLt
  have hi1 : (i 1).val < 10 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 10 ≤ (i 1).val ∧ (i 1).val < win0_4.index t (1 : Fin 2) * 10 + 10; omega

/-! ## The whole array, and the run -/

/-- THE RESULT ARRAY after the run is the specification of the argument arrays. -/
theorem final (c : Dev nD) : (dats m 0 c).arrAt 4 cfg0.N
    = bnn (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v5)
        = bnn (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.lean ====
/-
  A three-layer network with sign activations and sign-binarized weights, computed two ways, and the proof that the
  two agree on the extended reals whenever every input entry is finite.

  Both programs compute, for each row `x` of the input,
      h1 l = ∑ p, x p · s1 l p,    h2 k = ∑ l, sign (h1 l) · s2 k l,    out j = ∑ k, sign (h2 k) · s3 j k,
  where `s1`, `s2`, `s3` are the signs of the three weight matrices. The kernel takes the signs of the weights before
  its grid, then on each block of 1024 rows forms the three products with a sign between them, its sign written as a
  selection that is the sign function at every extended real. The reference writes every binarization in the
  straight-through form `z + (sign z − z)`, transposes the binarized weights and multiplies on the right.

  The straight-through form is `sign z` exactly when `z` is a real number; at an infinity it is not. The weights are
  real by the precondition; the first hidden layer is a finite sum of products of reals, so real, given a real input;
  the second is a sum of products of signs, always real. That is the one place finiteness is used. Everything else is
  re-indexing: a product contracting the second axis of both operands against a product with the transposed right
  operand, and 64 row blocks of 1024 rows against the whole array.

  The modules: SignNet (the function and the law), FiniteInputs (the precondition read as "every entry is real"),
  ReferenceValue (the reference at an index is the function), KernelPayload (the kernel body at an entry of its block
  is the function on that row), KernelArray (the blocks tile the result, so the kernel's result array is the function).
-/
import proofs.«102389_j16776142258911_2_alg».proof.Defs
import proofs.«102389_j16776142258911_2_alg».proof.Proof.Gen.Kernel
import proofs.«102389_j16776142258911_2_alg».proof.Proof.Gen.Kernel.Skeleton
import proofs.«102389_j16776142258911_2_alg».proof.Proof.Gen.Kernel.Launch
import proofs.«102389_j16776142258911_2_alg».proof.Proof.Gen.Kernel.Points
import proofs.«102389_j16776142258911_2_alg».proof.Proof.Gen.Kernel.Frame
import proofs.«102389_j16776142258911_2_alg».proof.Proof.Gen.KernelIdeal
import proofs.«102389_j16776142258911_2_alg».proof.Proof.Gen.KernelIdeal.Skeleton
import proofs.«102389_j16776142258911_2_alg».proof.Proof.Gen.KernelIdeal.Launch
import proofs.«102389_j16776142258911_2_alg».proof.Proof.Gen.KernelIdeal.Points
import proofs.«102389_j16776142258911_2_alg».proof.Proof.Gen.KernelIdeal.Frame
import proofs.«102389_j16776142258911_2_alg».proof.Proof.Gen.ReferenceIdeal
import proofs.«102389_j16776142258911_2_alg».proof.Proof.Gen.Pre_finite_inputs
import proofs.«102389_j16776142258911_2_alg».proof.Proof.Gen.KernelIdeal.Value
import proofs.«102389_j16776142258911_2_alg».proof.Proof.Gen.ReferenceIdeal.Run
import proofs.«102389_j16776142258911_2_alg».proof.Proof.Gen.ReferenceIdeal.Read
import proofs.«102389_j16776142258911_2_alg».proof.Proof.SignNet
import proofs.«102389_j16776142258911_2_alg».proof.Proof.FiniteInputs
import proofs.«102389_j16776142258911_2_alg».proof.Proof.ReferenceValue
import proofs.«102389_j16776142258911_2_alg».proof.Proof.KernelPayload
import proofs.«102389_j16776142258911_2_alg».proof.Proof.KernelArray
import Idealize.ShloMosaic.Adequacy
import Idealize.ShloMosaic.Init

noncomputable section

namespace Cert.Proof

open Idealize.ShloMosaic Idealize.ShloMosaic.TcCoe Idealize.SL.Sem Cert.SignNet

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two places where the kernel reads a float's sign bit to build ±1: at each, the word built is ±1 by the sign bit,
    and on the extended reals that is the selection on "below zero". -/
theorem preserves : Cert.preserves_Kernel_KernelIdeal :=
  ⟨IdealRules.sign_bit.statement Cert.KernelIdeal.S1024x400 .f32, IdealRules.sign_bit.statement Cert.KernelIdeal.S1024x200 .f32⟩

/-- On finite inputs the idealized kernel and the idealized reference end with the same result array: both are the
    three-layer sign network of the argument arrays. -/
theorem algebraic : Cert.algebraic_KernelIdeal_ReferenceIdeal := by
  intro m ρ m' ρ' hpre hagree
  refine ⟨fun c => bnn (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, h1, h2, h3⟩ := Cert.FiniteInputs.reals_of_pre _ _ _ _ (hpre c)
  rw [Cert.ReferenceIdeal.Read.val_main_v20_eq, (hagree c).1, (hagree c).2.1, (hagree c).2.2.1, (hagree c).2.2.2]
  exact Cert.ReferenceIdeal.RefValue.ref_eq_bnn _ _ _ _ hx h1 h2 h3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
